-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x480x640 : Shape := ⟨4, ![16, 9, 480, 640]⟩
abbrev S16x1x480x640 : Shape := ⟨4, ![16, 1, 480, 640]⟩
abbrev S_ : Shape := ⟨0, ![]⟩

class Facts : Prop where
  bcast_S_S16x9x480x640 : S_.BroadcastsInDim S16x9x480x640 (![] : Fin 0 → Fin S16x9x480x640.rank)
  reducesTo_S16x9x480x640_S_d0_1_2_3 : S16x9x480x640.ReducesTo [0, 1, 2, 3] S_
  h_S_ : 0 < S_.numel
  bcast_S_S16x1x480x640 : S_.BroadcastsInDim S16x1x480x640 (![] : Fin 0 → Fin S16x1x480x640.rank)
  reducesTo_S16x1x480x640_S_d0_1_2_3 : S16x1x480x640.ReducesTo [0, 1, 2, 3] S_

variable [Facts]

def fn {F : FTy → Type} [FloatOps F] (main_arg0 : FVec F S16x9x480x640 .f32) (main_arg1 : FVec F S16x1x480x640 .f32) (main_arg2 : FVec F S16x1x480x640 .f32) : IVec S_ 1 :=
  let main_v0 : FVec F S16x9x480x640 .f32 := Host.absf main_arg0
  let main_cst : FVec F S_ .f32 := constant S_ .f32 0x7F800000#32
  let main_v1 : FVec F S16x9x480x640 .f32 := broadcastInDim S16x9x480x640 ![] bcast_S_S16x9x480x640 main_cst
  let main_v2 : IVec S16x9x480x640 1 := cmpf .olt main_v0 main_v1
  let main_c : IVec S_ 1 := constantI S_ 1 1#1
  let main_v3 : IVec S_ 1 := (fun x v => Host.reduce IntOp.andi x v reducesTo_S16x9x480x640_S_d0_1_2_3 h_S_) main_v2 main_c
  let main_v4 : FVec F S16x1x480x640 .f32 := Host.absf main_arg1
  let main_cst_0 : FVec F S_ .f32 := constant S_ .f32 0x7F800000#32
  let main_v5 : FVec F S16x1x480x640 .f32 := broadcastInDim S16x1x480x640 ![] bcast_S_S16x1x480x640 main_cst_0
  let main_v6 : IVec S16x1x480x640 1 := cmpf .olt main_v4 main_v5
  let main_c_1 : IVec S_ 1 := constantI S_ 1 1#1
  let main_v7 : IVec S_ 1 := (fun x v => Host.reduce IntOp.andi x v reducesTo_S16x1x480x640_S_d0_1_2_3 h_S_) main_v6 main_c_1
  let main_v8 : IVec S_ 1 := andi main_v3 main_v7
  let main_v9 : FVec F S16x1x480x640 .f32 := Host.absf main_arg2
  let main_cst_2 : FVec F S_ .f32 := constant S_ .f32 0x7F800000#32
  let main_v10 : FVec F S16x1x480x640 .f32 := broadcastInDim S16x1x480x640 ![] bcast_S_S16x1x480x640 main_cst_2
  let main_v11 : IVec S16x1x480x640 1 := cmpf .olt main_v9 main_v10
  let main_c_3 : IVec S_ 1 := constantI S_ 1 1#1
  let main_v12 : IVec S_ 1 := (fun x v => Host.reduce IntOp.andi x v reducesTo_S16x1x480x640_S_d0_1_2_3 h_S_) main_v11 main_c_3
  let main_v13 : IVec S_ 1 := andi main_v8 main_v12
  main_v13
-- ==== Kernel.lean ====
abbrev S16x9x480x640 : Shape := ⟨4, ![16, 9, 480, 640]⟩
abbrev S16x1x480x640 : Shape := ⟨4, ![16, 1, 480, 640]⟩
abbrev S1x9x480x640 : Shape := ⟨4, ![1, 9, 480, 640]⟩
abbrev S1x1x480x640 : Shape := ⟨4, ![1, 1, 480, 640]⟩
abbrev S480x640 : Shape := ⟨2, ![480, 640]⟩

abbrev nBuf : Space → Nat
  | .hbm => 4
  | .vmem => 8
  | .smem => 0
  | _ => 0

abbrev bufTy : (tb : Table) → Fin (tcTables nBuf tb) → BufTy
  | .hbm, ⟨0, _⟩ => ⟨S16x9x480x640, .f32⟩
  | .hbm, ⟨1, _⟩ => ⟨S16x1x480x640, .f32⟩
  | .hbm, ⟨2, _⟩ => ⟨S16x1x480x640, .f32⟩
  | .hbm, ⟨3, _⟩ => ⟨S16x1x480x640, .f32⟩
  | .local _ .vmem, ⟨0, _⟩ => ⟨S1x9x480x640, .f32⟩
  | .local _ .vmem, ⟨1, _⟩ => ⟨S1x9x480x640, .f32⟩
  | .local _ .vmem, ⟨2, _⟩ => ⟨S1x1x480x640, .f32⟩
  | .local _ .vmem, ⟨3, _⟩ => ⟨S1x1x480x640, .f32⟩
  | .local _ .vmem, ⟨4, _⟩ => ⟨S1x1x480x640, .f32⟩
  | .local _ .vmem, ⟨5, _⟩ => ⟨S1x1x480x640, .f32⟩
  | .local _ .vmem, ⟨6, _⟩ => ⟨S1x1x480x640, .f32⟩
  | .local _ .vmem, ⟨7, _⟩ => ⟨S1x1x480x640, .f32⟩
  | _, _ => ⟨S16x9x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x480x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x480x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x480x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x480x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  iota_S480x640_d0_w32 : S480x640.Iotas .tc 32 [0]
  iota_S480x640_d1_w32 : S480x640.Iotas .tc 32 [1]
  inb_S1x1x480x640_S1x1x480x640_0_0_0_0 : ∀ a, (![0, 0, 0, 0] : Fin 4 → Nat) a + S1x1x480x640.size a ≤ S1x1x480x640.size a
  h_S1x1x480x640 : 0 < S1x1x480x640.numel
  shapeCasts_S1x1x480x640_S480x640 : S1x1x480x640.ShapeCasts S480x640
  rotates_S480x640_d0 : S480x640.Rotates 0 none
  rotates_S480x640_d1 : S480x640.Rotates 1 none
  inb_S1x9x480x640_S1x1x480x640_0_0_0_0 : ∀ a, (![0, 0, 0, 0] : Fin 4 → Nat) a + S1x1x480x640.size a ≤ S1x9x480x640.size a
  inb_S1x9x480x640_S1x1x480x640_0_1_0_0 : ∀ a, (![0, 1, 0, 0] : Fin 4 → Nat) a + S1x1x480x640.size a ≤ S1x9x480x640.size a
  inb_S1x9x480x640_S1x1x480x640_0_2_0_0 : ∀ a, (![0, 2, 0, 0] : Fin 4 → Nat) a + S1x1x480x640.size a ≤ S1x9x480x640.size a
  inb_S1x9x480x640_S1x1x480x640_0_3_0_0 : ∀ a, (![0, 3, 0, 0] : Fin 4 → Nat) a + S1x1x480x640.size a ≤ S1x9x480x640.size a
  inb_S1x9x480x640_S1x1x480x640_0_4_0_0 : ∀ a, (![0, 4, 0, 0] : Fin 4 → Nat) a + S1x1x480x640.size a ≤ S1x9x480x640.size a
  inb_S1x9x480x640_S1x1x480x640_0_5_0_0 : ∀ a, (![0, 5, 0, 0] : Fin 4 → Nat) a + S1x1x480x640.size a ≤ S1x9x480x640.size a
  inb_S1x9x480x640_S1x1x480x640_0_6_0_0 : ∀ a, (![0, 6, 0, 0] : Fin 4 → Nat) a + S1x1x480x640.size a ≤ S1x9x480x640.size a
  inb_S1x9x480x640_S1x1x480x640_0_7_0_0 : ∀ a, (![0, 7, 0, 0] : Fin 4 → Nat) a + S1x1x480x640.size a ≤ S1x9x480x640.size a
  inb_S1x9x480x640_S1x1x480x640_0_8_0_0 : ∀ a, (![0, 8, 0, 0] : Fin 4 → Nat) a + S1x1x480x640.size a ≤ S1x9x480x640.size a
  shapeCasts_S480x640_S1x1x480x640 : S480x640.ShapeCasts S1x1x480x640
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x480x640.size a ≤ S16x9x480x640.size a
  hwx0_0 : ∀ i : grid0.Coords, EltTy.bits .f32 = 32 ∨ (Rect.block (s := S16x9x480x640) S1x9x480x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x480x640.size a ≤ S16x1x480x640.size a
  hwx0_1 : ∀ i : grid0.Coords, EltTy.bits .f32 = 32 ∨ (Rect.block (s := S16x1x480x640) S1x1x480x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x480x640.size a ≤ S16x1x480x640.size a
  hwx0_2 : ∀ i : grid0.Coords, EltTy.bits .f32 = 32 ∨ (Rect.block (s := S16x1x480x640) S1x1x480x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x480x640.size a ≤ S16x1x480x640.size a
  hwx0_3 : ∀ i : grid0.Coords, EltTy.bits .f32 = 32 ∨ (Rect.block (s := S16x1x480x640) S1x1x480x640.size (cc0_transform_3 i) (hinb0_3 i)).WholeWords (EltTy.packing .f32)

variable [Facts₀]

abbrev win0_0 : Pipeline.Window sig grid0 :=
  Pipeline.Window.ofSpec (Memref.whole main_arg0) S1x9x480x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x480x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x480x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x480x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x9x480x640 : Shape := ⟨4, ![16, 9, 480, 640]⟩
abbrev S16x1x480x640 : Shape := ⟨4, ![16, 1, 480, 640]⟩
abbrev S16x480x640 : Shape := ⟨3, ![16, 480, 640]⟩
abbrev S_ : Shape := ⟨0, ![]⟩
abbrev S16x482x642 : Shape := ⟨3, ![16, 482, 642]⟩
abbrev S1 : Shape := ⟨1, ![1]⟩

abbrev nBuf : Space → Nat
  | .hbm => 34
  | .vmem => 0
  | .smem => 0
  | _ => 0

abbrev bufTy : (tb : Table) → Fin (tcTables nBuf tb) → BufTy
  | .hbm, ⟨0, _⟩ => ⟨S16x9x480x640, .f32⟩
  | .hbm, ⟨1, _⟩ => ⟨S16x1x480x640, .f32⟩
  | .hbm, ⟨2, _⟩ => ⟨S16x1x480x640, .f32⟩
  | .hbm, ⟨3, _⟩ => ⟨S16x480x640, .f32⟩
  | .hbm, ⟨4, _⟩ => ⟨S_, .i32⟩
  | .hbm, ⟨5, _⟩ => ⟨S_, .f32⟩
  | .hbm, ⟨6, _⟩ => ⟨S16x482x642, .f32⟩
  | .hbm, ⟨7, _⟩ => ⟨S16x480x640, .f32⟩
  | .hbm, ⟨8, _⟩ => ⟨S16x480x640, .f32⟩
  | .hbm, ⟨9, _⟩ => ⟨S16x480x640, .f32⟩
  | .hbm, ⟨10, _⟩ => ⟨S16x480x640, .f32⟩
  | .hbm, ⟨11, _⟩ => ⟨S16x480x640, .f32⟩
  | .hbm, ⟨12, _⟩ => ⟨S16x480x640, .f32⟩
  | .hbm, ⟨13, _⟩ => ⟨S16x480x640, .f32⟩
  | .hbm, ⟨14, _⟩ => ⟨S16x480x640, .f32⟩
  | .hbm, ⟨15, _⟩ => ⟨S16x480x640, .f32⟩
  | .hbm, ⟨16, _⟩ => ⟨S16x1x480x640, .f32⟩
  | .hbm, ⟨17, _⟩ => ⟨S16x1x480x640, .f32⟩
  | .hbm, ⟨18, _⟩ => ⟨S16x1x480x640, .f32⟩
  | .hbm, ⟨19, _⟩ => ⟨S16x1x480x640, .f32⟩
  | .hbm, ⟨20, _⟩ => ⟨S16x1x480x640, .f32⟩
  | .hbm, ⟨21, _⟩ => ⟨S16x1x480x640, .f32⟩
  | .hbm, ⟨22, _⟩ => ⟨S16x1x480x640, .f32⟩
  | .hbm, ⟨23, _⟩ => ⟨S16x1x480x640, .f32⟩
  | .hbm, ⟨24, _⟩ => ⟨S16x1x480x640, .f32⟩
  | .hbm, ⟨25, _⟩ => ⟨S16x9x480x640, .f32⟩
  | .hbm, ⟨26, _⟩ => ⟨S16x480x640, .f32⟩
  | .hbm, ⟨27, _⟩ => ⟨S_, .i32⟩
  | .hbm, ⟨28, _⟩ => ⟨S1, .i32⟩
  | .hbm, ⟨29, _⟩ => ⟨S16x9x480x640, .f32⟩
  | .hbm, ⟨30, _⟩ => ⟨S16x9x480x640, .f32⟩
  | .hbm, ⟨31, _⟩ => ⟨S_, .f32⟩
  | .hbm, ⟨32, _⟩ => ⟨S16x480x640, .f32⟩
  | .hbm, ⟨33, _⟩ => ⟨S16x1x480x640, .f32⟩
  | _, _ => ⟨S16x9x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S16x1x480x640_S16x480x640 : S16x1x480x640.ShapeCasts S16x480x640
  pads_S16x480x640_S16x482x642_000_110_110 : S16x480x640.Pads (![0, 1, 1] : Fin 3 → Nat) ![0, 1, 1] ![0, 0, 0] S16x482x642
  h_S_ : 0 < S_.numel
  slices_S16x482x642_S16x480x640_0_0_0 : S16x482x642.Slices ![0, 0, 0] S16x480x640
  slices_S16x482x642_S16x480x640_0_0_1 : S16x482x642.Slices ![0, 0, 1] S16x480x640
  slices_S16x482x642_S16x480x640_0_0_2 : S16x482x642.Slices ![0, 0, 2] S16x480x640
  slices_S16x482x642_S16x480x640_0_1_0 : S16x482x642.Slices ![0, 1, 0] S16x480x640
  slices_S16x482x642_S16x480x640_0_1_1 : S16x482x642.Slices ![0, 1, 1] S16x480x640
  slices_S16x482x642_S16x480x640_0_1_2 : S16x482x642.Slices ![0, 1, 2] S16x480x640
  slices_S16x482x642_S16x480x640_0_2_0 : S16x482x642.Slices ![0, 2, 0] S16x480x640
  slices_S16x482x642_S16x480x640_0_2_1 : S16x482x642.Slices ![0, 2, 1] S16x480x640
  slices_S16x482x642_S16x480x640_0_2_2 : S16x482x642.Slices ![0, 2, 2] S16x480x640
  bcast_S16x480x640_S16x1x480x640_0_2_3 : S16x480x640.BroadcastsInDim S16x1x480x640 (![0, 2, 3] : Fin 3 → Fin S16x1x480x640.rank)
  concatenates_S16x1x480x640_S16x1x480x640_S16x1x480x640_S16x1x480x640_S16x1x480x640_S16x1x480x640_S16x1x480x640_S16x1x480x640_S16x1x480x640_S16x9x480x640_d1 : Shape.Concatenates [S16x1x480x640, S16x1x480x640, S16x1x480x640, S16x1x480x640, S16x1x480x640, S16x1x480x640, S16x1x480x640, S16x1x480x640, S16x1x480x640] S16x9x480x640 1
  bcast_S_S1 : S_.BroadcastsInDim S1 (![] : Fin 0 → Fin S1.rank)
  reducesTo_S16x9x480x640_S16x480x640_d1 : S16x9x480x640.ReducesTo [1] S16x480x640
  scatter_S16x9x480x640_S1_S16x480x640_012_1_1_0_wf : ScatterDims.WF S16x9x480x640 S1 S16x480x640 [0, 1, 2] [1] [1] 0

variable [Facts₀]

def scatter_S16x9x480x640_S1_S16x480x640_012_1_1_0 : ScatterDims S16x9x480x640 S1 S16x480x640 where
  updateWindowDims := [0, 1, 2]
  insertedWindowDims := [1]
  scatterDimsToOperandDims := [1]
  indexVectorDim := 0
  wf := scatter_S16x9x480x640_S1_S16x480x640_012_1_1_0_wf

class Facts : Prop extends Facts₀ where

variable [Facts]
-- ==== Proof.KernelOps.lean ====
/-
  The kernel's vector operations on one 480 × 640 plane, read at a row and a column.

  A rotation along the rows by `s` reads row `(r − s) mod 480` (the row that moved to `r`); along the columns
  likewise modulo 640. A row iota holds the row number, a column iota the column number, as 32-bit words; since a row
  or column number is far below 2³², two such words differ exactly when the numbers differ, which is what the
  kernel's "not equal" masks test. The block the kernel loads has two leading axes of size one; dropping or adding them
  does not move the plane's entries.
-/
import Idealize.ShloMosaic.Lib.KernelVsHost
import Idealize.ShloMosaic.Lib.ValueIdx
import Idealize.ShloMosaic.Lib.Pipeline.Value

noncomputable section

namespace Cert.PlaneOps

open Idealize.ShloMosaic Idealize.ShloMosaic.ValueIdx

variable {α : Type}

/-- The plane's shape and the shape of a one-plane block. -/
abbrev SP : Shape := ⟨2, ![480, 640]⟩
abbrev SB : Shape := ⟨4, ![1, 1, 480, 640]⟩

/-- The row that a rotation by `s` brings to row `r`. -/
def rowBack (s : Nat) (r : Fin 480) : Fin 480 := ⟨(r.val + 480 - s % 480) % 480, Nat.mod_lt _ (by decide)⟩
/-- The column that a rotation by `s` brings to column `c`. -/
def colBack (s : Nat) (c : Fin 640) : Fin 640 := ⟨(c.val + 640 - s % 640) % 640, Nat.mod_lt _ (by decide)⟩

theorem rot_rows_apply (sb : BitVec 32) (v : SP.Idx → α) (h : SP.Rotates 0 none) (r : Fin 480) (c : Fin 640) :
    dynamicRotate 0 sb none v h (ix2 r c) = v (ix2 (rowBack sb.toNat r) c) :=
  dynamicRotate_apply 0 sb v h _ _ (fun b => by
    match b with
    | ⟨0, _⟩ => rfl
    | ⟨1, _⟩ => rfl)

theorem rot_cols_apply (sb : BitVec 32) (v : SP.Idx → α) (h : SP.Rotates 1 none) (r : Fin 480) (c : Fin 640) :
    dynamicRotate 1 sb none v h (ix2 r c) = v (ix2 r (colBack sb.toNat c)) :=
  dynamicRotate_apply 1 sb v h _ _ (fun b => by
    match b with
    | ⟨0, _⟩ => rfl
    | ⟨1, _⟩ => rfl)

theorem iota_rows_apply (h : SP.Iotas .tc 32 [0]) (r : Fin 480) (c : Fin 640) :
    iota .tc SP 32 [0] h (ix2 r c) = BitVec.ofNat 32 r.val := by
  show BitVec.ofNat 32 (0 * 480 + r.val) = _
  rw [Nat.zero_mul, Nat.zero_add]

theorem iota_cols_apply (h : SP.Iotas .tc 32 [1]) (r : Fin 480) (c : Fin 640) :
    iota .tc SP 32 [1] h (ix2 r c) = BitVec.ofNat 32 c.val := by
  show BitVec.ofNat 32 (0 * 640 + c.val) = _
  rw [Nat.zero_mul, Nat.zero_add]

theorem cmpi_apply {s : Shape} {w : Nat} (p : CmpIPredicate) (x y : IVec s w) (i : s.Idx) :
    cmpi p x y i = IntOp.cmpi p (x i) (y i) := rfl

theorem andi_apply {s : Shape} {w : Nat} (x y : IVec s w) (i : s.Idx) : andi x y i = IntOp.andi (x i) (y i) := rfl

/-- Two numbers below 2³² are different exactly when their 32-bit words are. -/
theorem cmpi_ne_ofNat (n k : Nat) (hn : n < 2 ^ 32) (hk : k < 2 ^ 32) :
    IntOp.cmpi .ne (BitVec.ofNat 32 n) (BitVec.ofNat 32 k) = if n ≠ k then 1#1 else 0#1 := by
  show BitVec.ofBool (BitVec.ofNat 32 n != BitVec.ofNat 32 k) = _
  by_cases h : n = k
  · subst h
    rw [if_neg (fun h' => h' rfl), bne_self_eq_false]; rfl
  · have hne : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    rw [if_pos h, bne_iff_ne.2 hne]; rfl

/-- A value kept where one "not equal" test holds. -/
theorem select_ne1 (n k : Nat) (hn : n < 2 ^ 32) (hk : k < 2 ^ 32) (a b : α) :
    Scalar.select (IntOp.cmpi .ne (BitVec.ofNat 32 n) (BitVec.ofNat 32 k)) a b = if n ≠ k then a else b := by
  rw [cmpi_ne_ofNat n k hn hk]
  unfold Scalar.select
  by_cases h : n = k <;> simp [h]

/-- A value kept where two "not equal" tests both hold. -/
theorem select_ne2 (n₁ k₁ n₂ k₂ : Nat) (hn₁ : n₁ < 2 ^ 32) (hk₁ : k₁ < 2 ^ 32) (hn₂ : n₂ < 2 ^ 32) (hk₂ : k₂ < 2 ^ 32)
    (a b : α) :
    Scalar.select (IntOp.andi (IntOp.cmpi .ne (BitVec.ofNat 32 n₁) (BitVec.ofNat 32 k₁))
      (IntOp.cmpi .ne (BitVec.ofNat 32 n₂) (BitVec.ofNat 32 k₂))) a b = if n₁ ≠ k₁ ∧ n₂ ≠ k₂ then a else b := by
  rw [cmpi_ne_ofNat n₁ k₁ hn₁ hk₁, cmpi_ne_ofNat n₂ k₂ hn₂ hk₂]
  unfold Scalar.select IntOp.andi
  by_cases h₁ : n₁ = k₁ <;> by_cases h₂ : n₂ = k₂ <;> simp [h₁, h₂]

/-- The block with its two unit axes dropped, at `(r, c)`. -/
theorem dropUnits_apply (v : SB.Idx → α) (h : SB.ShapeCasts SP) (r : Fin 480) (c : Fin 640) :
    shapeCast SP v h (ix2 r c) = v (ix4 0 0 r c) :=
  shapeCast_apply v h _ _ (by
    rw [Shape.rowMajor_val_four, Shape.rowMajor_val_two]
    show ((0 * 1 + 0) * 480 + r.val) * 640 + c.val = r.val * 640 + c.val
    omega)

/-- The plane with two unit axes added in front, at `(0, 0, r, c)`. -/
theorem addUnits_apply (v : SP.Idx → α) (h : SP.ShapeCasts SB) (r : Fin 480) (c : Fin 640) :
    shapeCast SB v h (ix4 0 0 r c) = v (ix2 r c) :=
  shapeCast_apply v h _ _ (by
    rw [Shape.rowMajor_val_four, Shape.rowMajor_val_two]
    show r.val * 640 + c.val = ((0 * 1 + 0) * 480 + r.val) * 640 + c.val
    omega)

end Cert.PlaneOps

end
-- ==== Proof.Spec.lean ====
/-
  The nine-tap stencil both programs compute, stated once over one image plane.

  An image plane is a 480 × 640 array of extended reals. `padded P p q` is the plane with a ring of zeros around
  it, read at the padded coordinates `0 ≤ p ≤ 481`, `0 ≤ q ≤ 641`: the plane's entry `(p − 1, q − 1)` inside, zero
  on the ring. Tap `k = 3·di + dj` of the 3 × 3 neighbourhood of `(r, c)` is the padded plane at `(r + di, c + dj)`
  — the neighbour `(r + di − 1, c + dj − 1)`, or zero when that neighbour is off the plane — except the centre tap
  `k = 4`, which is taken from a second plane `P0` instead. The result at `(r, c)` is the sum over the nine taps of
  tap times weight.

  Two small facts join the two programs to this statement: a sum over nine indices written out in order (the kernel
  adds the taps one after the other, the reference sums over an axis; addition of extended reals is associative
  and commutative, infinities included), and the form a masked, wrapped-around neighbour takes (`masked_eq_padded`).
-/
import Idealize.ShloMosaic.PureOps.Ideal
import Idealize.ShloMosaic.Lib.ValueIdx

noncomputable section

namespace Cert.Stencil

open Idealize.ShloMosaic Idealize.ShloMosaic.ValueIdx

/-- An image plane. -/
abbrev Plane := Fin 480 → Fin 640 → EReal

/-- The plane with a ring of zeros around it, at padded coordinates. -/
def padded (P : Plane) (p q : Nat) : EReal :=
  if h : (1 ≤ p ∧ p ≤ 480) ∧ (1 ≤ q ∧ q ≤ 640) then P ⟨p - 1, by omega⟩ ⟨q - 1, by omega⟩ else 0

/-- Tap `k` of the neighbourhood of `(r, c)`: the centre from `P0`, the others from the zero-padded `P`. -/
def tap (P P0 : Plane) (k : Fin 9) (r : Fin 480) (c : Fin 640) : EReal :=
  if k.val = 4 then P0 r c else padded P (r.val + k.val / 3) (c.val + k.val % 3)

/-- The stencil at `(r, c)`: the nine taps against the nine weight planes. -/
def stencilAt (W : Fin 9 → Plane) (P P0 : Plane) (r : Fin 480) (c : Fin 640) : EReal :=
  ∑ k : Fin 9, tap P P0 k r c * W k r c

/-- THE RESULT both programs compute, at batch `b`, row `r`, column `c`: the stencil of batch `b`'s image plane (centre
    tap from the second image) against batch `b`'s nine weight planes. -/
def resultAt (K : (⟨4, ![16, 9, 480, 640]⟩ : Shape).Idx → EReal) (X X0 : (⟨4, ![16, 1, 480, 640]⟩ : Shape).Idx → EReal)
    (b : Fin 16) (r : Fin 480) (c : Fin 640) : EReal :=
  stencilAt (fun k r c => K (ix4 b k r c)) (fun r c => X (ix4 b 0 r c)) (fun r c => X0 (ix4 b 0 r c)) r c

/-- The whole result array [16, 1, 480, 640] as one function of the three argument arrays. -/
def result (K : (⟨4, ![16, 9, 480, 640]⟩ : Shape).Idx → EReal) (X X0 : (⟨4, ![16, 1, 480, 640]⟩ : Shape).Idx → EReal) :
    (⟨4, ![16, 1, 480, 640]⟩ : Shape).Idx → EReal :=
  fun i => resultAt K X X0 (i 0) (i 2) (i 3)

/-- A sum over nine indices, written out in order. -/
theorem sum_nine (f : Fin 9 → EReal) :
    ∑ k : Fin 9, f k = f 0 + f 1 + f 2 + f 3 + f 4 + f 5 + f 6 + f 7 + f 8 := by
  rw [Fin.sum_univ_castSucc, Fin.sum_univ_eight]
  rfl

/-- The stencil with its taps written out: what a program that adds the taps one after the other computes. -/
theorem stencilAt_eq (W : Fin 9 → Plane) (P P0 : Plane) (r : Fin 480) (c : Fin 640) :
    stencilAt W P P0 r c =
      padded P (r.val + 0) (c.val + 0) * W 0 r c + padded P (r.val + 0) (c.val + 1) * W 1 r c
        + padded P (r.val + 0) (c.val + 2) * W 2 r c + padded P (r.val + 1) (c.val + 0) * W 3 r c
        + P0 r c * W 4 r c + padded P (r.val + 1) (c.val + 2) * W 5 r c
        + padded P (r.val + 2) (c.val + 0) * W 6 r c + padded P (r.val + 2) (c.val + 1) * W 7 r c
        + padded P (r.val + 2) (c.val + 2) * W 8 r c := by
  unfold stencilAt
  rw [sum_nine]
  rfl

/-- A neighbour fetched with wrap-around and then masked is the zero-padded plane: if the row test `okr` says exactly
    that the padded row `r + di` is inside, and then `r'` is that neighbour's row (likewise for the columns), the
    masked value is `padded P (r + di) (c + dj)`. -/
theorem masked_eq_padded (P : Plane) (p q : Nat) (r' : Fin 480) (c' : Fin 640) (okr okc : Prop)
    [Decidable okr] [Decidable okc]
    (hr : okr ↔ (1 ≤ p ∧ p ≤ 480)) (hc : okc ↔ (1 ≤ q ∧ q ≤ 640))
    (hr' : okr → r'.val + 1 = p) (hc' : okc → c'.val + 1 = q) :
    (if okr ∧ okc then P r' c' else 0) = padded P p q := by
  unfold padded
  by_cases h : okr ∧ okc
  · rw [if_pos h, dif_pos ⟨hr.1 h.1, hc.1 h.2⟩]
    have e1 := hr' h.1
    have e2 := hc' h.2
    congr 1 <;> apply Fin.ext <;> simp only [] <;> omega
  · rw [if_neg h, dif_neg (fun h' => h ⟨hr.2 h'.1, hc.2 h'.2⟩)]

end Cert.Stencil

end
-- ==== Proof.KernelTaps.lean ====
/-
  The kernel's eight neighbour taps, each read at a row and a column as the zero-padded plane.

  A tap is the plane rotated by one row and/or one column (a rotation by 479 rows, or 639 columns, is a rotation by
  one the other way), with the entries that wrapped around the edge replaced by zero: the mask excludes exactly the
  first or last row, the first or last column. So the tap for the offset (di, dj) at (r, c) is the neighbour
  (r + di − 1, c + dj − 1) when that neighbour is on the plane and zero otherwise — the padded plane at
  (r + di, c + dj).
-/
import proofs.«167945_j14929306321555_2_alg».proof.Proof.KernelOps
import proofs.«167945_j14929306321555_2_alg».proof.Proof.Spec
import Idealize.ShloMosaic.PureOps.Ideal.Laws

noncomputable section

namespace Cert.PlaneOps

open Idealize.ShloMosaic Idealize.ShloMosaic.ValueIdx Cert.Stencil

/-- A plane vector as a function of row and column. -/
abbrev planeOfVec (v : FVec Ideal SP .f32) : Plane := fun r c => v (ix2 r c)

variable (v : FVec Ideal SP .f32) (hi0 : SP.Iotas .tc 32 [0]) (hi1 : SP.Iotas .tc 32 [1])
  (hr0 : SP.Rotates 0 none) (hr1 : SP.Rotates 1 none)

/-- The zero the masks fill in. -/
theorem fill_zero : (Scalar.ofBits .f32 0x00000000#32 : Ideal .f32) = 0 := Ideal.ofBits_zero_f32

/-- Rows and columns both rotated, both masked. -/
theorem corner_apply (a b : Nat) (ha : a < 480) (hb : b < 640) (sr sc : BitVec 32) (r : Fin 480) (c : Fin 640) :
    select (andi (cmpi .ne (iota .tc SP 32 [0] hi0) (broadcast SP (BitVec.ofNat 32 a)))
        (cmpi .ne (iota .tc SP 32 [1] hi1) (broadcast SP (BitVec.ofNat 32 b))))
      (dynamicRotate 1 sc none (dynamicRotate 0 sr none v hr0) hr1)
      (broadcast SP (Scalar.ofBits .f32 0x00000000#32)) (ix2 r c)
    = if r.val ≠ a ∧ c.val ≠ b then v (ix2 (rowBack sr.toNat r) (colBack sc.toNat c)) else 0 := by
  have hr := r.isLt
  have hc := c.isLt
  rw [select_apply, andi_apply, cmpi_apply, cmpi_apply, iota_rows_apply, iota_cols_apply, broadcast_apply,
    broadcast_apply, broadcast_apply, rot_cols_apply, rot_rows_apply,
    select_ne2 _ _ _ _ (by omega) (by omega) (by omega) (by omega), fill_zero]

/-- Rows rotated and masked. -/
theorem rows_apply (a : Nat) (ha : a < 480) (sr : BitVec 32) (r : Fin 480) (c : Fin 640) :
    select (cmpi .ne (iota .tc SP 32 [0] hi0) (broadcast SP (BitVec.ofNat 32 a)))
      (dynamicRotate 0 sr none v hr0) (broadcast SP (Scalar.ofBits .f32 0x00000000#32)) (ix2 r c)
    = if r.val ≠ a ∧ True then v (ix2 (rowBack sr.toNat r) c) else 0 := by
  have hr := r.isLt
  rw [select_apply, cmpi_apply, iota_rows_apply, broadcast_apply, broadcast_apply, rot_rows_apply,
    select_ne1 _ _ (by omega) (by omega), fill_zero]
  exact (if_congr (and_iff_left trivial) rfl rfl).symm

/-- Columns rotated and masked. -/
theorem cols_apply (b : Nat) (hb : b < 640) (sc : BitVec 32) (r : Fin 480) (c : Fin 640) :
    select (cmpi .ne (iota .tc SP 32 [1] hi1) (broadcast SP (BitVec.ofNat 32 b)))
      (dynamicRotate 1 sc none v hr1) (broadcast SP (Scalar.ofBits .f32 0x00000000#32)) (ix2 r c)
    = if True ∧ c.val ≠ b then v (ix2 r (colBack sc.toNat c)) else 0 := by
  have hc := c.isLt
  rw [select_apply, cmpi_apply, iota_cols_apply, broadcast_apply, broadcast_apply, rot_cols_apply,
    select_ne1 _ _ (by omega) (by omega), fill_zero]
  exact (if_congr (and_iff_right trivial) rfl rfl).symm

/-! ## The eight taps -/

theorem tap_nw (r : Fin 480) (c : Fin 640) :
    select (andi (cmpi .ne (iota .tc SP 32 [0] hi0) (broadcast SP 0#32)) (cmpi .ne (iota .tc SP 32 [1] hi1) (broadcast SP 0#32)))
      (dynamicRotate 1 1#32 none (dynamicRotate 0 1#32 none v hr0) hr1)
      (broadcast SP (Scalar.ofBits .f32 0x00000000#32)) (ix2 r c)
    = padded (planeOfVec v) (r.val + 0) (c.val + 0) := by
  have hr := r.isLt
  have hc := c.isLt
  refine (corner_apply v hi0 hi1 hr0 hr1 0 0 (by omega) (by omega) 1#32 1#32 r c).trans ?_
  exact masked_eq_padded (planeOfVec v) _ _ _ _ _ _ (by omega) (by omega)
    (fun h => by show (r.val + 480 - 1 % 480) % 480 + 1 = r.val + 0; omega)
    (fun h => by show (c.val + 640 - 1 % 640) % 640 + 1 = c.val + 0; omega)

theorem tap_n (r : Fin 480) (c : Fin 640) :
    select (cmpi .ne (iota .tc SP 32 [0] hi0) (broadcast SP 0#32))
      (dynamicRotate 0 1#32 none v hr0) (broadcast SP (Scalar.ofBits .f32 0x00000000#32)) (ix2 r c)
    = padded (planeOfVec v) (r.val + 0) (c.val + 1) := by
  have hr := r.isLt
  have hc := c.isLt
  refine (rows_apply v hi0 hr0 0 (by omega) 1#32 r c).trans ?_
  exact masked_eq_padded (planeOfVec v) _ _ _ _ _ _ (by omega) ⟨fun _ => by omega, fun _ => trivial⟩
    (fun h => by show (r.val + 480 - 1 % 480) % 480 + 1 = r.val + 0; omega)
    (fun h => rfl)

theorem tap_ne (r : Fin 480) (c : Fin 640) :
    select (andi (cmpi .ne (iota .tc SP 32 [0] hi0) (broadcast SP 0#32)) (cmpi .ne (iota .tc SP 32 [1] hi1) (broadcast SP 639#32)))
      (dynamicRotate 1 639#32 none (dynamicRotate 0 1#32 none v hr0) hr1)
      (broadcast SP (Scalar.ofBits .f32 0x00000000#32)) (ix2 r c)
    = padded (planeOfVec v) (r.val + 0) (c.val + 2) := by
  have hr := r.isLt
  have hc := c.isLt
  refine (corner_apply v hi0 hi1 hr0 hr1 0 639 (by omega) (by omega) 1#32 639#32 r c).trans ?_
  exact masked_eq_padded (planeOfVec v) _ _ _ _ _ _ (by omega) (by omega)
    (fun h => by show (r.val + 480 - 1 % 480) % 480 + 1 = r.val + 0; omega)
    (fun h => by show (c.val + 640 - 639 % 640) % 640 + 1 = c.val + 2; omega)

theorem tap_w (r : Fin 480) (c : Fin 640) :
    select (cmpi .ne (iota .tc SP 32 [1] hi1) (broadcast SP 0#32))
      (dynamicRotate 1 1#32 none v hr1) (broadcast SP (Scalar.ofBits .f32 0x00000000#32)) (ix2 r c)
    = padded (planeOfVec v) (r.val + 1) (c.val + 0) := by
  have hr := r.isLt
  have hc := c.isLt
  refine (cols_apply v hi1 hr1 0 (by omega) 1#32 r c).trans ?_
  exact masked_eq_padded (planeOfVec v) _ _ _ _ _ _ ⟨fun _ => by omega, fun _ => trivial⟩ (by omega)
    (fun h => rfl)
    (fun h => by show (c.val + 640 - 1 % 640) % 640 + 1 = c.val + 0; omega)

theorem tap_e (r : Fin 480) (c : Fin 640) :
    select (cmpi .ne (iota .tc SP 32 [1] hi1) (broadcast SP 639#32))
      (dynamicRotate 1 639#32 none v hr1) (broadcast SP (Scalar.ofBits .f32 0x00000000#32)) (ix2 r c)
    = padded (planeOfVec v) (r.val + 1) (c.val + 2) := by
  have hr := r.isLt
  have hc := c.isLt
  refine (cols_apply v hi1 hr1 639 (by omega) 639#32 r c).trans ?_
  exact masked_eq_padded (planeOfVec v) _ _ _ _ _ _ ⟨fun _ => by omega, fun _ => trivial⟩ (by omega)
    (fun h => rfl)
    (fun h => by show (c.val + 640 - 639 % 640) % 640 + 1 = c.val + 2; omega)

theorem tap_sw (r : Fin 480) (c : Fin 640) :
    select (andi (cmpi .ne (iota .tc SP 32 [0] hi0) (broadcast SP 479#32)) (cmpi .ne (iota .tc SP 32 [1] hi1) (broadcast SP 0#32)))
      (dynamicRotate 1 1#32 none (dynamicRotate 0 479#32 none v hr0) hr1)
      (broadcast SP (Scalar.ofBits .f32 0x00000000#32)) (ix2 r c)
    = padded (planeOfVec v) (r.val + 2) (c.val + 0) := by
  have hr := r.isLt
  have hc := c.isLt
  refine (corner_apply v hi0 hi1 hr0 hr1 479 0 (by omega) (by omega) 479#32 1#32 r c).trans ?_
  exact masked_eq_padded (planeOfVec v) _ _ _ _ _ _ (by omega) (by omega)
    (fun h => by show (r.val + 480 - 479 % 480) % 480 + 1 = r.val + 2; omega)
    (fun h => by show (c.val + 640 - 1 % 640) % 640 + 1 = c.val + 0; omega)

theorem tap_s (r : Fin 480) (c : Fin 640) :
    select (cmpi .ne (iota .tc SP 32 [0] hi0) (broadcast SP 479#32))
      (dynamicRotate 0 479#32 none v hr0) (broadcast SP (Scalar.ofBits .f32 0x00000000#32)) (ix2 r c)
    = padded (planeOfVec v) (r.val + 2) (c.val + 1) := by
  have hr := r.isLt
  have hc := c.isLt
  refine (rows_apply v hi0 hr0 479 (by omega) 479#32 r c).trans ?_
  exact masked_eq_padded (planeOfVec v) _ _ _ _ _ _ (by omega) ⟨fun _ => by omega, fun _ => trivial⟩
    (fun h => by show (r.val + 480 - 479 % 480) % 480 + 1 = r.val + 2; omega)
    (fun h => rfl)

theorem tap_se (r : Fin 480) (c : Fin 640) :
    select (andi (cmpi .ne (iota .tc SP 32 [0] hi0) (broadcast SP 479#32)) (cmpi .ne (iota .tc SP 32 [1] hi1) (broadcast SP 639#32)))
      (dynamicRotate 1 639#32 none (dynamicRotate 0 479#32 none v hr0) hr1)
      (broadcast SP (Scalar.ofBits .f32 0x00000000#32)) (ix2 r c)
    = padded (planeOfVec v) (r.val + 2) (c.val + 2) := by
  have hr := r.isLt
  have hc := c.isLt
  refine (corner_apply v hi0 hi1 hr0 hr1 479 639 (by omega) (by omega) 479#32 639#32 r c).trans ?_
  exact masked_eq_padded (planeOfVec v) _ _ _ _ _ _ (by omega) (by omega)
    (fun h => by show (r.val + 480 - 479 % 480) % 480 + 1 = r.val + 2; omega)
    (fun h => by show (c.val + 640 - 639 % 640) % 640 + 1 = c.val + 2; omega)

end Cert.PlaneOps

end
-- ==== Proof.KernelBlock.lean ====
/-
  What one grid point's body leaves in the output block, at a row and a column: the nine-tap stencil of the
  point's blocks.

  The body loads the image block and the centre block whole, and the nine weight slices out of the weight block,
  drops the unit axes, forms the eight masked rotations of the image plane (the neighbour taps) and the centre plane,
  multiplies each by its weight slice and adds the nine products to a zero accumulator one after the other; the sum
  is stored whole. Reading the stored block at (0, 0, r, c) therefore gives the taps written out in order, which is
  the stencil with its sum over the taps written out.
-/
import proofs.«167945_j14929306321555_2_alg».proof.Proof.Gen.KernelIdeal.Frame
import proofs.«167945_j14929306321555_2_alg».proof.Proof.KernelTaps

noncomputable section

namespace Cert.KernelBlock

open Cert.KernelIdeal Cert.KernelIdeal.Gen Idealize.ShloMosaic Idealize.ShloMosaic.ValueIdx
open Cert.PlaneOps Cert.Stencil

theorem offsets_zero : (![0, 0, 0, 0] : Fin 4 → Nat) = fun _ => 0 := funext fun a => by fin_cases a <;> rfl

/-- Slice `k` of the weight block, loaded as a one-plane block, at `(0, 0, r, c)`. -/
theorem weight_slice_apply (kb : Vec Ideal S1x9x480x640 .f32) (k : Nat) (hk : k < 9)
    (inb : ∀ a, (![0, k, 0, 0] : Fin 4 → Nat) a + S1x1x480x640.size a ≤ S1x9x480x640.size a) (r : Fin 480) (c : Fin 640) :
    View.ld kb (Rect.unit (s := S1x9x480x640) ![0, k, 0, 0] S1x1x480x640.size inb) (ix4 0 0 r c)
      = kb (ix4 0 ⟨k, hk⟩ r c) := by
  show kb ((Rect.unit (s := S1x9x480x640) ![0, k, 0, 0] S1x1x480x640.size inb).idx (ix4 0 0 r c)) = _
  refine congrArg kb (funext fun a => Fin.ext ?_)
  match a with
  | ⟨0, _⟩ => show 0 + 1 * 0 = 0; omega
  | ⟨1, _⟩ => show k + 1 * 0 = k; omega
  | ⟨2, _⟩ => show 0 + 1 * r.val = r.val; omega
  | ⟨3, _⟩ => show 0 + 1 * c.val = c.val; omega

/-- The image plane the body works on is the image block's plane. -/
theorem image_plane (xb : Vec Ideal S1x1x480x640 .f32) :
    planeOfVec (k0_pay2 (F := Ideal) xb) = fun r c => xb (ix4 0 0 r c) := by
  funext r c
  exact dropUnits_apply xb _ r c

set_option maxHeartbeats 1000000 in
/-- THE OUTPUT BLOCK at `(0, 0, r, c)` is the stencil of the point's blocks. -/
theorem block_eq (kb : Vec Ideal S1x9x480x640 .f32) (xb x0b : Vec Ideal S1x1x480x640 .f32) (r : Fin 480) (c : Fin 640) :
    out0_3 (F := Ideal) kb xb x0b (ix4 0 0 r c)
      = stencilAt (fun k r c => kb (ix4 0 k r c)) (fun r c => xb (ix4 0 0 r c)) (fun r c => x0b (ix4 0 0 r c)) r c := by
  rw [stencilAt_eq, ← image_plane xb]
  unfold out0_3
  rw [View.canon_unit_zero offsets_zero]
  simp only [View.ld_unit_zero (S := S1x1x480x640) offsets_zero]
  unfold k0_pay1
  rw [addUnits_apply]
  unfold k0_pay8 k0_pay7 k0_pay6 k0_pay5 k0_pay4 k0_pay3
  simp only [addf_apply, mulf_apply, dropUnits_apply]
  rw [tap_nw, tap_n, tap_ne, tap_w, tap_e, tap_sw, tap_s, tap_se, broadcast_apply, fill_zero, zero_add,
    weight_slice_apply kb 0 (by decide), weight_slice_apply kb 1 (by decide), weight_slice_apply kb 2 (by decide),
    weight_slice_apply kb 3 (by decide), weight_slice_apply kb 4 (by decide), weight_slice_apply kb 5 (by decide),
    weight_slice_apply kb 6 (by decide), weight_slice_apply kb 7 (by decide), weight_slice_apply kb 8 (by decide)]
  rfl

end Cert.KernelBlock

end
-- ==== Proof.KernelArray.lean ====
/-
  From the blocks to the whole array: the kernel's result array is the stencil of the argument arrays.

  The grid has one point per batch. At point `t` every window's block index is `(t, 0, 0, 0)`: the weight window
  stages batch `t`'s nine weight planes, the two image windows batch `t`'s planes, and the output window's block is
  batch `t`'s plane of the result. So an entry `(0, k, r, c)` of a block is the array's entry `(t, k, r, c)`, what
  point `t` writes back is block `t` of the result (the body's stencil of the blocks, read through the block), and
  the sixteen output blocks cover the array: index `(b, 0, r, c)` lies in the block of point `b`.
-/
import proofs.«167945_j14929306321555_2_alg».proof.Proof.Gen.KernelIdeal.Value
import proofs.«167945_j14929306321555_2_alg».proof.Proof.KernelBlock

noncomputable section

namespace Cert.KernelArray

open Cert.KernelIdeal Cert.KernelIdeal.Gen Idealize.ShloMosaic Idealize.ShloMosaic.TcCoe Idealize.SL.Sem
open Idealize.ShloMosaic.ValueIdx Cert.Stencil
open Idealize.ShloMosaic.Pipeline (Dat)

variable (m : (ℓ : Loc nD τ sig) → Buf (Elt Ideal) ℓ) (ρ : Dev nD → PrngReg)

/-- The printed index maps, decided over the sixteen points: every window's block index at point `t` is
    `(t, 0, 0, 0)`. -/
theorem block_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- Point `t`'s batch. -/
def batch (t : Fin cfg0.N) : Fin 16 := ⟨t.val, Nat.lt_of_lt_of_eq t.isLt N_0⟩

/-- The weight block's entry `(0, k, r, c)` at point `t` is the weight array's entry `(t, k, r, c)`. -/
theorem read_weights (c : Dev nD) (t : Fin cfg0.N) (k : Fin 9) (r : Fin 480) (cc : Fin 640) :
    iblk m c 0 t (ix4 0 k r cc) = V m c main_arg0 (ix4 (batch t) k r cc) := by
  obtain ⟨⟨e0, e1, e2, e3⟩, -, -, -⟩ := block_index t
  show V m c main_arg0 (((cfg0.win 0).blk t).view.emb (ix4 0 k r cc)) = V m c main_arg0 (ix4 (batch t) k r cc)
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 9 + 1 * k.val = k.val; omega
  | ⟨2, _⟩ => show win0_0.index t (2 : Fin 4) * 480 + 1 * r.val = r.val; omega
  | ⟨3, _⟩ => show win0_0.index t (3 : Fin 4) * 640 + 1 * cc.val = cc.val; omega

/-- The image block's entry `(0, 0, r, c)` at point `t` is the image's entry `(t, 0, r, c)`. -/
theorem read_image (c : Dev nD) (t : Fin cfg0.N) (r : Fin 480) (cc : Fin 640) :
    iblk m c 1 t (ix4 0 0 r cc) = V m c main_arg1 (ix4 (batch t) 0 r cc) := by
  obtain ⟨-, ⟨e0, e1, e2, e3⟩, -, -⟩ := block_index t
  show V m c main_arg1 (((cfg0.win 1).blk t).view.emb (ix4 0 0 r cc)) = V m c main_arg1 (ix4 (batch t) 0 r cc)
  refine congrArg (V m c main_arg1) (funext fun a => Fin.ext ?_)
  match a with
  | ⟨0, _⟩ => show win0_1.index t (0 : Fin 4) * 1 + 1 * 0 = t.val; omega
  | ⟨1, _⟩ => show win0_1.index t (1 : Fin 4) * 1 + 1 * 0 = 0; omega
  | ⟨2, _⟩ => show win0_1.index t (2 : Fin 4) * 480 + 1 * r.val = r.val; omega
  | ⟨3, _⟩ => show win0_1.index t (3 : Fin 4) * 640 + 1 * cc.val = cc.val; omega

/-- The centre block's entry `(0, 0, r, c)` at point `t` is the second image's entry `(t, 0, r, c)`. -/
theorem read_centre (c : Dev nD) (t : Fin cfg0.N) (r : Fin 480) (cc : Fin 640) :
    iblk m c 2 t (ix4 0 0 r cc) = V m c main_arg2 (ix4 (batch t) 0 r cc) := by
  obtain ⟨-, -, ⟨e0, e1, e2, e3⟩, -⟩ := block_index t
  show V m c main_arg2 (((cfg0.win 2).blk t).view.emb (ix4 0 0 r cc)) = V m c main_arg2 (ix4 (batch t) 0 r cc)
  refine congrArg (V m c main_arg2) (funext fun a => Fin.ext ?_)
  match a with
  | ⟨0, _⟩ => show win0_2.index t (0 : Fin 4) * 1 + 1 * 0 = t.val; omega
  | ⟨1, _⟩ => show win0_2.index t (1 : Fin 4) * 1 + 1 * 0 = 0; omega
  | ⟨2, _⟩ => show win0_2.index t (2 : Fin 4) * 480 + 1 * r.val = r.val; omega
  | ⟨3, _⟩ => show win0_2.index t (3 : Fin 4) * 640 + 1 * cc.val = cc.val; omega

/-- The output block's entry `(0, 0, r, c)` at point `t` sits at the array's index `(t, 0, r, c)`. -/
theorem output_index (t : Fin cfg0.N) (r : Fin 480) (cc : Fin 640) :
    ((cfg0.win 3).blk t).view.emb (ix4 0 0 r cc) = ix4 (batch t) 0 r cc := by
  obtain ⟨-, -, -, ⟨e0, e1, e2, e3⟩⟩ := block_index t
  refine funext fun a => Fin.ext ?_
  match a with
  | ⟨0, _⟩ => show win0_3.index t (0 : Fin 4) * 1 + 1 * 0 = t.val; omega
  | ⟨1, _⟩ => show win0_3.index t (1 : Fin 4) * 1 + 1 * 0 = 0; omega
  | ⟨2, _⟩ => show win0_3.index t (2 : Fin 4) * 480 + 1 * r.val = r.val; omega
  | ⟨3, _⟩ => show win0_3.index t (3 : Fin 4) * 640 + 1 * cc.val = cc.val; omega

/-- WHAT POINT `t` WRITES BACK is block `t` of the stencil of the argument arrays. -/
theorem flushed_eq (c : Dev nD) (t : Fin cfg0.N) :
    (dats m 0 c).flushed 3 t
      = ((cfg0.win 3).blk t).view.read (Elt Ideal) (result (V m c main_arg0) (V m c main_arg1) (V m c main_arg2)) := by
  rw [Value.flushed3]
  refine funext fun (y : S1x1x480x640.Idx) => ?_
  obtain ⟨z0, z1, r, cc, rfl⟩ : ∃ (z0 z1 : Fin 1) (r : Fin 480) (cc : Fin 640), y = ix4 z0 z1 r cc :=
    ⟨y 0, y 1, y 2, y 3, eq_ix4 y⟩
  obtain rfl : z0 = 0 := Subsingleton.elim _ _
  obtain rfl : z1 = 0 := Subsingleton.elim _ _
  show out0_3 (iblk m c 0 t) (iblk m c 1 t) (iblk m c 2 t) (ix4 0 0 r cc)
    = result (V m c main_arg0) (V m c main_arg1) (V m c main_arg2) (((cfg0.win 3).blk t).view.emb (ix4 0 0 r cc))
  rw [output_index]
  refine (KernelBlock.block_eq (iblk m c 0 t) (iblk m c 1 t) (iblk m c 2 t) r cc).trans ?_
  show _ = stencilAt (fun k r c' => V m c main_arg0 (ix4 (batch t) k r c')) (fun r c' => V m c main_arg1 (ix4 (batch t) 0 r c'))
    (fun r c' => V m c main_arg2 (ix4 (batch t) 0 r c')) r cc
  have hw : (fun (k : Fin 9) (r : Fin 480) (c' : Fin 640) => iblk m c 0 t (ix4 0 k r c'))
      = fun k r c' => V m c main_arg0 (ix4 (batch t) k r c') := by
    funext k r c'; exact read_weights m c t k r c'
  have hx : (fun (r : Fin 480) (c' : Fin 640) => iblk m c 1 t (ix4 0 0 r c'))
      = fun r c' => V m c main_arg1 (ix4 (batch t) 0 r c') := by
    funext r c'; exact read_image m c t r c'
  have hx0 : (fun (r : Fin 480) (c' : Fin 640) => iblk m c 2 t (ix4 0 0 r c'))
      = fun r c' => V m c main_arg2 (ix4 (batch t) 0 r c') := by
    funext r c'; exact read_centre m c t r c'
  rw [hw, hx, hx0]

/-- An index of the array is in point `t`'s block iff each coordinate is in the block's range on its axis. -/
theorem mem_block (t : Fin cfg0.N) (i : S16x1x480x640.Idx) :
    i ∈ ((cfg0.win 3).blk t).view.set ↔ ∀ a : Fin 4, win0_3.index t a * S1x1x480x640.size a ≤ (i a).val ∧ (i a).val < win0_3.index t a * S1x1x480x640.size a + S1x1x480x640.size a := by
  show i ∈ ((View.whole main_v0).slice (win0_3.rect t)).set ↔ _
  rw [View.set_slice_whole, Rect.mem_set_unit]
  exact Iff.rfl

/-- Every index of the result array is in the block of its batch's point. -/
theorem covered (i : S16x1x480x640.Idx) :
    ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 480 := (i 2).isLt
  have h3 : (i 3).val < 640 := (i 3).isLt
  let t : Fin cfg0.N := ⟨(i 0).val, Nat.lt_of_lt_of_eq h0 N_0.symm⟩
  obtain ⟨-, -, -, ⟨e0, e1, e2, e3⟩⟩ := block_index t
  have et : t.val = (i 0).val := rfl
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 480 ≤ (i 2).val ∧ (i 2).val < win0_3.index t (2 : Fin 4) * 480 + 480; omega
  | ⟨3, _⟩ => show win0_3.index t (3 : Fin 4) * 640 ≤ (i 3).val ∧ (i 3).val < win0_3.index t (3 : Fin 4) * 640 + 640; omega

/-- THE RESULT ARRAY after the run is the stencil of the argument arrays. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: the result array at the stencil of the argument arrays, the arguments unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelArray

end
-- ==== Proof.LibScatterSet.lean ====
/-
  A host scatter whose body returns the update (jnp's `x.at[…].set(v)`), read at one index of its result.

  The printed operation is the left fold, over the update indices in row-major order, of the step "replace the
  result's element where this update lands by the update's element". Reading the fold at a fixed result index `i`
  only ever looks at the updates that land on `i`:
    * if no update lands on `i`, every step leaves the element alone and the result holds the operand's element;
    * if the update index `j` lands on `i` and it is the only one that does, the step of `j` writes the update's
      element at `j` and no later step touches it.
  Both are proved for a fold over any list of update positions and then specialised to the list of all positions,
  which has no repeats. Nothing is assumed of the element type, so the lemmas hold at every instance.
-/
import Idealize.ShloMosaic.PureOps.ShapeOps

namespace Idealize.ShloMosaic.ScatterSet

variable {s si u : Shape} {α : Type} {w : Nat}

/-- One step of the printed fold for the body `fun _ b => b`: the update at row-major position `n` replaces the
    element of `r` at the index it lands on, and is dropped when it lands outside the operand. -/
def step (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update does not land on `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  generalize d.resultIdx? (u.rowMajor.symm n) idx = o at h
  cases o with
  | none => rfl
  | some i₀ =>
    have hne : i ≠ i₀ := fun e => h (by rw [e])
    exact if_neg hne

/-- A step whose update lands on `i` leaves the update's element there. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  exact if_pos rfl

/-- Folding steps none of which lands on `i` keeps the element at `i`. -/
theorem foldl_miss (d : ScatterDims s si u) (idx : IVec si w) (upd : u.Idx → α) (i : s.Idx) :
    ∀ (L : List (Fin u.numel)) (r : s.Idx → α),
      (∀ n ∈ L, d.resultIdx? (u.rowMajor.symm n) idx ≠ some i) → L.foldl (step d idx upd) r i = r i
  | [], _, _ => rfl
  | n :: L, r, h => by
    rw [List.foldl_cons, foldl_miss d idx upd i L _ (fun n' hn' => h n' (List.mem_cons_of_mem _ hn'))]
    exact step_miss d idx upd r n i (h n (List.mem_cons_self ..))

/-- Folding steps over a list without repeats in which exactly the position `n₀` lands on `i` leaves the update's
    element of `n₀` at `i`. -/
theorem foldl_hit (d : ScatterDims s si u) (idx : IVec si w) (upd : u.Idx → α) (i : s.Idx) (n₀ : Fin u.numel)
    (h₀ : d.resultIdx? (u.rowMajor.symm n₀) idx = some i) :
    ∀ (L : List (Fin u.numel)) (r : s.Idx → α), L.Nodup → n₀ ∈ L →
      (∀ n ∈ L, n ≠ n₀ → d.resultIdx? (u.rowMajor.symm n) idx ≠ some i) →
      L.foldl (step d idx upd) r i = upd (u.rowMajor.symm n₀)
  | [], _, _, hm, _ => absurd hm (List.not_mem_nil)
  | n :: L, r, hnd, hm, hother => by
    rw [List.foldl_cons]
    have hnd' := List.nodup_cons.1 hnd
    by_cases e : n = n₀
    · subst e
      rw [foldl_miss d idx upd i L _ (fun n' hn' => hother n' (List.mem_cons_of_mem _ hn')
        (fun e' => hnd'.1 (e' ▸ hn')))]
      exact step_hit d idx upd r n i h₀
    · have hm' : n₀ ∈ L := by
        rcases List.mem_cons.1 hm with h | h
        · exact absurd h.symm e
        · exact h
      exact foldl_hit d idx upd i n₀ h₀ L _ hnd'.2 hm' (fun n' hn' => hother n' (List.mem_cons_of_mem _ hn'))

/-- THE RESULT AT AN INDEX NO UPDATE LANDS ON is the operand's element. -/
theorem scatter_set_apply_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [scatter_eq_foldl]
  exact foldl_miss d idx upd i _ x (fun n _ => h _)

/-- THE RESULT AT AN INDEX EXACTLY ONE UPDATE LANDS ON is that update's element. -/
theorem scatter_set_apply_of_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have h₀ : d.resultIdx? (u.rowMajor.symm (u.rowMajor j)) idx = some i := by rw [Equiv.symm_apply_apply]; exact hj
  rw [foldl_hit d idx upd i (u.rowMajor j) h₀ _ x (List.nodup_finRange _) (List.mem_finRange _)
    (fun n _ hne hn => hne (by rw [← huniq _ hn, Equiv.apply_symm_apply])), Equiv.symm_apply_apply]

end Idealize.ShloMosaic.ScatterSet
-- ==== Proof.RefStages.lean ====
/-
  The reference's three stages that are read by hand at an index — the zero padding, the stack of the nine shifted
  slices, and the replacement of the centre slice — and with them the whole reference as the stencil.

  The reference reshapes the image to [16, 480, 640], pads rows and columns by one zero on each side (the padding
  value is the integer 0 converted, which is 0), and takes the nine [480, 640] windows of the padded array at the
  offsets (di, dj), 0 ≤ di, dj ≤ 2. Window k = 3·di + dj at (r, c) is therefore the padded plane at
  (r + di, c + dj). The nine windows are stacked along a new axis 1; the scatter at the constant index 4 overwrites
  slice 4 of the stack with the second image and leaves the other slices alone (update (b, r, c) lands on
  (b, 4, r, c), so every element of slice 4 meets exactly one update and no other element meets any); the result
  is multiplied by the weights and summed over axis 1 starting from 0.
-/
import proofs.«167945_j14929306321555_2_alg».proof.Proof.Gen.ReferenceIdeal.Read
import proofs.«167945_j14929306321555_2_alg».proof.Proof.LibScatterSet
import proofs.«167945_j14929306321555_2_alg».proof.Proof.Spec
import Idealize.ShloMosaic.Lib.KernelVsHost

noncomputable section

namespace Cert.RefStages

open Cert.ReferenceIdeal Cert.ReferenceIdeal.Gen Cert.ReferenceIdeal.Read Idealize.ShloMosaic Idealize.ShloMosaic.ValueIdx
open Cert.Stencil

/-- Batch `b`'s plane of an image array [16, 1, 480, 640]. -/
abbrev planeOf (X : (⟨S16x1x480x640, .f32⟩ : BufTy).Contents (Elt Ideal)) (b : Fin 16) : Plane :=
  fun r c => X (ix4 b 0 r c)

/-! ## The padded image -/

/-- The padded array at `(b, p, q)` is batch `b`'s plane with its ring of zeros, at `(p, q)`. -/
theorem pad_at (X : (⟨S16x1x480x640, .f32⟩ : BufTy).Contents (Elt Ideal)) (j : S16x482x642.Idx) :
    val_main_v1 (F := Ideal) X j = padded (planeOf X (j 0)) (j 1).val (j 2).val := by
  unfold val_main_v1 padded
  have h0 : (j 0).val < 16 := (j 0).isLt
  have h1 : (j 1).val < 482 := (j 1).isLt
  have h2 : (j 2).val < 642 := (j 2).isLt
  by_cases h : (1 ≤ (j 1).val ∧ (j 1).val ≤ 480) ∧ (1 ≤ (j 2).val ∧ (j 2).val ≤ 640)
  · rw [dif_pos h]
    refine (pad_apply_of_inside ![0, 1, 1] ![0, 1, 1] ![0, 0, 0] (val_main_v0 (F := Ideal) X) _ _ _ j
      (ix3 (j 0) ⟨(j 1).val - 1, by omega⟩ ⟨(j 2).val - 1, by omega⟩) (fun a => ?_)).trans ?_
    · match a with
      | ⟨0, _⟩ => show (j 0).val = 0 + (j 0).val * (0 + 1); omega
      | ⟨1, _⟩ => show (j 1).val = 1 + ((j 1).val - 1) * (0 + 1); omega
      | ⟨2, _⟩ => show (j 2).val = 1 + ((j 2).val - 1) * (0 + 1); omega
    · rw [val_main_v0_apply]
      refine congrArg X (funext fun a => Fin.ext ?_)
      match a with
      | ⟨0, _⟩ => show ((((j 0).val * 480 + ((j 1).val - 1)) * 640 + ((j 2).val - 1)) / 307200) = (j 0).val; omega
      | ⟨1, _⟩ => rfl
      | ⟨2, _⟩ => show ((((j 0).val * 480 + ((j 1).val - 1)) * 640 + ((j 2).val - 1)) / 640 % 480) = (j 1).val - 1; omega
      | ⟨3, _⟩ => show ((((j 0).val * 480 + ((j 1).val - 1)) * 640 + ((j 2).val - 1)) % 640) = (j 2).val - 1; omega
  · rw [dif_neg h]
    have hz : val_main_call0_v0 (F := Ideal) (Shape.Idx.first h_S_) = 0 := by
      rw [val_main_call0_v0_apply, val_main_c_apply]
      exact sitofp_zero (φ := .f32)
    by_cases hr : 1 ≤ (j 1).val ∧ (j 1).val ≤ 480
    · have hc : ¬(1 ≤ (j 2).val ∧ (j 2).val ≤ 640) := fun hc => h ⟨hr, hc⟩
      refine (pad_apply_of_not_inside ![0, 1, 1] ![0, 1, 1] ![0, 0, 0] (val_main_v0 (F := Ideal) X) _ _ _ j 2 ?_).trans hz
      show ¬(1 ≤ (j 2).val ∧ ((j 2).val - 1) % (0 + 1) = 0 ∧ ((j 2).val - 1) / (0 + 1) < 640)
      omega
    · refine (pad_apply_of_not_inside ![0, 1, 1] ![0, 1, 1] ![0, 0, 0] (val_main_v0 (F := Ideal) X) _ _ _ j 1 ?_).trans hz
      show ¬(1 ≤ (j 1).val ∧ ((j 1).val - 1) % (0 + 1) = 0 ∧ ((j 1).val - 1) / (0 + 1) < 480)
      omega

/-! ## The nine windows of the padded image, stacked -/

/-- Closes "window k at (b, 0, r, c) is the padded plane at (r + di, c + dj)": the broadcast and the slice are read
    by their index lemmas, the padded array by `pad_at`; the coordinates agree up to the order of a sum. -/
local macro "window_tac" l1:ident l2:ident rl:term:max cl:term:max kk:num : tactic =>
  `(tactic| (rw [$l1:ident, $l2:ident, pad_at]
             refine congrArg₂ (padded _) ?_ ?_
             · show $rl = (_ : Fin 480).val + $kk / 3; omega
             · show $cl = (_ : Fin 640).val + $kk % 3; omega))

/-- The nine windows, as the list the stack is made of. -/
abbrev pieces (X : (⟨S16x1x480x640, .f32⟩ : BufTy).Contents (Elt Ideal)) : List ((s : Shape) × (s.Idx → Elt Ideal .f32)) :=
  [⟨S16x1x480x640, val_main_v11 (F := Ideal) X⟩, ⟨S16x1x480x640, val_main_v12 (F := Ideal) X⟩,
   ⟨S16x1x480x640, val_main_v13 (F := Ideal) X⟩, ⟨S16x1x480x640, val_main_v14 (F := Ideal) X⟩,
   ⟨S16x1x480x640, val_main_v15 (F := Ideal) X⟩, ⟨S16x1x480x640, val_main_v16 (F := Ideal) X⟩,
   ⟨S16x1x480x640, val_main_v17 (F := Ideal) X⟩, ⟨S16x1x480x640, val_main_v18 (F := Ideal) X⟩,
   ⟨S16x1x480x640, val_main_v19 (F := Ideal) X⟩]

/-- Slice `k` of the stack at `(r, c)` is the padded plane at `(r + k / 3, c + k % 3)`. -/
theorem stack_at (X : (⟨S16x1x480x640, .f32⟩ : BufTy).Contents (Elt Ideal)) (b : Fin 16) (k : Fin 9)
    (r : Fin 480) (c : Fin 640) :
    val_main_v20 (F := Ideal) X (ix4 b k r c) = padded (planeOf X b) (r.val + k.val / 3) (c.val + k.val % 3) := by
  show concatenate S16x9x480x640 1 (pieces X) _ (ix4 b k r c) = _
  have hi : ∀ (k' : Fin 9) (b' : Fin S16x1x480x640.rank), b'.cast (rfl : S16x1x480x640.rank = S16x9x480x640.rank) ≠ 1 →
      ((ix4 b (0 : Fin 1) r c : S16x1x480x640.Idx) b').val = ((ix4 b k' r c : S16x9x480x640.Idx) (b'.cast rfl)).val := by
    intro k' b' hb'
    match b' with
    | ⟨0, _⟩ => rfl
    | ⟨1, _⟩ => exact absurd rfl hb'
    | ⟨2, _⟩ => rfl
    | ⟨3, _⟩ => rfl
  match k with
  | ⟨0, _⟩ =>
    refine Eq.trans (concatenate_apply_piece (t := S16x9x480x640) 1 (pieces X) _ _ 0 (by show (_ : ℕ) < 9; decide) S16x1x480x640 (val_main_v11 (F := Ideal) X) rfl rfl 0 rfl
      (ix4 b 0 r c) (hi _) rfl) ?_
    window_tac val_main_v11_apply val_main_v2_apply r.val c.val 0
  | ⟨1, _⟩ =>
    refine Eq.trans (concatenate_apply_piece (t := S16x9x480x640) 1 (pieces X) _ _ 1 (by show (_ : ℕ) < 9; decide) S16x1x480x640 (val_main_v12 (F := Ideal) X) rfl rfl 1 rfl
      (ix4 b 0 r c) (hi _) rfl) ?_
    window_tac val_main_v12_apply val_main_v3_apply r.val (1 + c.val) 1
  | ⟨2, _⟩ =>
    refine Eq.trans (concatenate_apply_piece (t := S16x9x480x640) 1 (pieces X) _ _ 2 (by show (_ : ℕ) < 9; decide) S16x1x480x640 (val_main_v13 (F := Ideal) X) rfl rfl 2 rfl
      (ix4 b 0 r c) (hi _) rfl) ?_
    window_tac val_main_v13_apply val_main_v4_apply r.val (2 + c.val) 2
  | ⟨3, _⟩ =>
    refine Eq.trans (concatenate_apply_piece (t := S16x9x480x640) 1 (pieces X) _ _ 3 (by show (_ : ℕ) < 9; decide) S16x1x480x640 (val_main_v14 (F := Ideal) X) rfl rfl 3 rfl
      (ix4 b 0 r c) (hi _) rfl) ?_
    window_tac val_main_v14_apply val_main_v5_apply (1 + r.val) c.val 3
  | ⟨4, _⟩ =>
    refine Eq.trans (concatenate_apply_piece (t := S16x9x480x640) 1 (pieces X) _ _ 4 (by show (_ : ℕ) < 9; decide) S16x1x480x640 (val_main_v15 (F := Ideal) X) rfl rfl 4 rfl
      (ix4 b 0 r c) (hi _) rfl) ?_
    window_tac val_main_v15_apply val_main_v6_apply (1 + r.val) (1 + c.val) 4
  | ⟨5, _⟩ =>
    refine Eq.trans (concatenate_apply_piece (t := S16x9x480x640) 1 (pieces X) _ _ 5 (by show (_ : ℕ) < 9; decide) S16x1x480x640 (val_main_v16 (F := Ideal) X) rfl rfl 5 rfl
      (ix4 b 0 r c) (hi _) rfl) ?_
    window_tac val_main_v16_apply val_main_v7_apply (1 + r.val) (2 + c.val) 5
  | ⟨6, _⟩ =>
    refine Eq.trans (concatenate_apply_piece (t := S16x9x480x640) 1 (pieces X) _ _ 6 (by show (_ : ℕ) < 9; decide) S16x1x480x640 (val_main_v17 (F := Ideal) X) rfl rfl 6 rfl
      (ix4 b 0 r c) (hi _) rfl) ?_
    window_tac val_main_v17_apply val_main_v8_apply (2 + r.val) c.val 6
  | ⟨7, _⟩ =>
    refine Eq.trans (concatenate_apply_piece (t := S16x9x480x640) 1 (pieces X) _ _ 7 (by show (_ : ℕ) < 9; decide) S16x1x480x640 (val_main_v18 (F := Ideal) X) rfl rfl 7 rfl
      (ix4 b 0 r c) (hi _) rfl) ?_
    window_tac val_main_v18_apply val_main_v9_apply (2 + r.val) (1 + c.val) 7
  | ⟨8, _⟩ =>
    refine Eq.trans (concatenate_apply_piece (t := S16x9x480x640) 1 (pieces X) _ _ 8 (by show (_ : ℕ) < 9; decide) S16x1x480x640 (val_main_v19 (F := Ideal) X) rfl rfl 8 rfl
      (ix4 b 0 r c) (hi _) rfl) ?_
    window_tac val_main_v19_apply val_main_v10_apply (2 + r.val) (2 + c.val) 8

/-! ## The centre slice replaced -/

/-- The scatter's dimension numbers: the update's three axes are window axes, the operand's axis 1 is inserted and
    takes the one scatter index. -/
abbrev centreDims := scatter_S16x9x480x640_S1_S16x480x640_012_1_1_0

/-- Update `(b, r, c)` lands on `(b, 4, r, c)`: the start is the constant index 4 on axis 1 and 0 elsewhere, the
    window coordinates are the update's own on the three other axes. -/
theorem lands (j : S16x480x640.Idx) :
    centreDims.resultIdx? j (val_main_v22 (F := Ideal)) = some (ix4 (j 0) 4 (j 1) (j 2)) := by
  have hst : centreDims.start j (val_main_v22 (F := Ideal)) 1 = 4 := by
    have e : centreDims.start j (val_main_v22 (F := Ideal)) 1 = (val_main_v22 (F := Ideal) (ix1 0)).toInt := by
      unfold ScatterDims.start
      rw [dif_pos (by decide)]
      refine congrArg (fun k => (val_main_v22 (F := Ideal) k).toInt) (funext fun b => ?_)
      match b with
      | ⟨0, _⟩ => rfl
    rw [e, val_main_v22_apply, val_main_c_0_apply]
    decide
  have hval : ∀ a : Fin 4, centreDims.start j (val_main_v22 (F := Ideal)) a + (centreDims.window j a : ℤ)
      = (((ix4 (j 0) 4 (j 1) (j 2) : S16x9x480x640.Idx) a).val : ℤ) := by
    intro a
    match a with
    | ⟨0, _⟩ => show (0 : ℤ) + ((j 0).val : ℤ) = ((j 0).val : ℤ); omega
    | ⟨1, _⟩ =>
      show centreDims.start j (val_main_v22 (F := Ideal)) 1 + ((0 : ℕ) : ℤ) = ((4 : ℕ) : ℤ)
      rw [hst]; rfl
    | ⟨2, _⟩ => show (0 : ℤ) + ((j 1).val : ℤ) = ((j 1).val : ℤ); omega
    | ⟨3, _⟩ => show (0 : ℤ) + ((j 2).val : ℤ) = ((j 2).val : ℤ); omega
  unfold ScatterDims.resultIdx?
  rw [dif_pos (fun a => by
    rw [hval a]
    exact ⟨Int.natCast_nonneg _, Int.ofNat_lt.2 (Fin.isLt _)⟩)]
  refine congrArg some (funext fun a => Fin.ext ?_)
  show (centreDims.start j (val_main_v22 (F := Ideal)) a + (centreDims.window j a : ℤ)).toNat = _
  rw [hval a]
  exact Int.toNat_natCast _

/-- After the scatter, slice 4 holds the second image and every other slice is the stack's. -/
theorem centre_replaced (X X0 : (⟨S16x1x480x640, .f32⟩ : BufTy).Contents (Elt Ideal)) (b : Fin 16) (k : Fin 9)
    (r : Fin 480) (c : Fin 640) :
    val_main_v23 (F := Ideal) X X0 (ix4 b k r c)
      = if k.val = 4 then X0 (ix4 b 0 r c) else val_main_v20 (F := Ideal) X (ix4 b k r c) := by
  unfold val_main_v23
  by_cases hk : k.val = 4
  · rw [if_pos hk]
    have hk' : k = 4 := Fin.ext hk
    subst hk'
    refine (ScatterSet.scatter_set_apply_of_hit centreDims _ _ _ (ix4 b 4 r c) (ix3 b r c) (lands _) (fun j' hj' => ?_)).trans ?_
    · rw [lands] at hj'
      have e := Option.some.inj hj'
      funext a
      match a with
      | ⟨0, _⟩ => exact congrFun e ⟨0, by decide⟩
      | ⟨1, _⟩ => exact congrFun e ⟨2, by decide⟩
      | ⟨2, _⟩ => exact congrFun e ⟨3, by decide⟩
    · rw [val_main_v21_apply]
      have hb := b.isLt
      have hr := r.isLt
      have hc := c.isLt
      refine congrArg X0 (funext fun a => Fin.ext ?_)
      match a with
      | ⟨0, _⟩ => show ((b.val * 480 + r.val) * 640 + c.val) / 307200 = b.val; omega
      | ⟨1, _⟩ => rfl
      | ⟨2, _⟩ => show ((b.val * 480 + r.val) * 640 + c.val) / 640 % 480 = r.val; omega
      | ⟨3, _⟩ => show ((b.val * 480 + r.val) * 640 + c.val) % 640 = c.val; omega
  · rw [if_neg hk]
    refine ScatterSet.scatter_set_apply_of_miss centreDims _ _ _ _ (fun j hj => hk ?_)
    rw [lands] at hj
    have e := congrArg Fin.val (congrFun (Option.some.inj hj) ⟨1, by decide⟩)
    exact e.symm

/-! ## The reference is the stencil -/

/-- THE REFERENCE'S RESULT at `(b, 0, r, c)`: the nine-tap stencil of batch `b`'s planes. -/
theorem reference_eq (K : (⟨S16x9x480x640, .f32⟩ : BufTy).Contents (Elt Ideal))
    (X X0 : (⟨S16x1x480x640, .f32⟩ : BufTy).Contents (Elt Ideal)) (b : Fin 16) (z : Fin 1) (r : Fin 480) (c : Fin 640) :
    val_main_v26 (F := Ideal) K X X0 (ix4 b z r c)
      = stencilAt (fun k r c => K (ix4 b k r c)) (planeOf X b) (planeOf X0 b) r c := by
  rw [val_main_v26_apply, val_main_v25_apply, val_main_cst_apply, Ideal.ofBits_def, Ideal.ofBits_zero_f32, zero_add]
  unfold stencilAt
  refine Finset.sum_congr rfl fun k _ => ?_
  have e : idx_main_v25 (idx_main_v26 (ix4 b z r c)) k = ix4 b k r c := by
    funext a
    match a with
    | ⟨0, _⟩ => rfl
    | ⟨1, _⟩ => rfl
    | ⟨2, _⟩ => rfl
    | ⟨3, _⟩ => rfl
  rw [val_main_v24_apply, e, centre_replaced, stack_at]
  rfl

/-- THE REFERENCE'S RESULT ARRAY is the stencil of the argument arrays. -/
theorem reference_result (K : (⟨S16x9x480x640, .f32⟩ : BufTy).Contents (Elt Ideal))
    (X X0 : (⟨S16x1x480x640, .f32⟩ : BufTy).Contents (Elt Ideal)) :
    val_main_v26 (F := Ideal) K X X0 = result K X X0 := by
  funext i
  obtain ⟨b, z, r, c, rfl⟩ : ∃ (b : Fin 16) (z : Fin 1) (r : Fin 480) (c : Fin 640), i = ix4 b z r c :=
    ⟨i 0, i 1, i 2, i 3, eq_ix4 i⟩
  exact reference_eq K X X0 b z r c

end Cert.RefStages

end
-- ==== Proof.lean ====
/-
  The certificate of a 3 × 3 neighbourhood-weighted sum (nine taps per pixel, the centre tap taken from a second
  image) computed by a tiled kernel, one batch per grid point, against its array-level reference.

  For batch `b`, row `r`, column `c` both programs compute, on the extended reals,

      out[b, 0, r, c] = Σ_{k = 3·di + dj} tap_k(r, c) · kernel[b, k, r, c],
      tap_4 = input0[b, 0, r, c],   tap_k = input[b, 0, r + di − 1, c + dj − 1] if that pixel exists, else 0.

  The kernel fetches a neighbour by rotating the image plane by one row and/or column and zeroes, with iota masks, the
  entries that wrapped around an edge; it adds the nine products to a zero accumulator in order. The reference pads
  the image with a ring of zeros, stacks the nine shifted windows, overwrites window 4 with the second image, multiplies
  by the weights and sums over the stack axis. Both are the one function `Cert.Stencil.result` of the argument
  arrays: the masked rotation and the padded window are the same entry (Proof/Spec.lean `masked_eq_padded`), and the two
  orders of summation agree because addition of extended reals is associative and commutative. No product is ever
  distributed and nothing is cancelled, so the precondition that the inputs are finite is not used.

  Modules: Spec (the stencil, stated once), KernelOps / KernelTaps (the kernel's vector operations and its eight taps
  at a row and a column), KernelBlock (one grid point's output block), KernelArray (the blocks cover the array: the
  kernel's run), LibScatterSet (a scatter that sets, read at an index), RefStages (the reference's padding, stack and
  scatter, and the reference's result). The frames and the two programs' runs are the generated modules'.
-/
import proofs.«167945_j14929306321555_2_alg».proof.Defs
import proofs.«167945_j14929306321555_2_alg».proof.Proof.Gen.Kernel
import proofs.«167945_j14929306321555_2_alg».proof.Proof.Gen.Kernel.Frame
import proofs.«167945_j14929306321555_2_alg».proof.Proof.Gen.KernelIdeal
import proofs.«167945_j14929306321555_2_alg».proof.Proof.Gen.KernelIdeal.Frame
import proofs.«167945_j14929306321555_2_alg».proof.Proof.Gen.ReferenceIdeal
import proofs.«167945_j14929306321555_2_alg».proof.Proof.Gen.ReferenceIdeal.Run
import proofs.«167945_j14929306321555_2_alg».proof.Proof.Gen.ReferenceIdeal.Read
import proofs.«167945_j14929306321555_2_alg».proof.Proof.Gen.Pre_finite_inputs
import proofs.«167945_j14929306321555_2_alg».proof.Proof.KernelArray
import proofs.«167945_j14929306321555_2_alg».proof.Proof.RefStages

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a list of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the kernel's result array and the reference's are both the stencil of
    the argument arrays. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.RefStages.reference_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
